-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S64x128 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S64x128 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 103
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x64, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x64, .f32⟩
  | .hbm, ⟨94, _⟩ => ⟨S1700000x1, .f32⟩
  | .hbm, ⟨95, _⟩ => ⟨S1700000x64, .f32⟩
  | .hbm, ⟨96, _⟩ => ⟨S1700000x64, .f32⟩
  | .hbm, ⟨97, _⟩ => ⟨S_, .f32⟩
  | .hbm, ⟨98, _⟩ => ⟨S100000x64, .f32⟩
  | .hbm, ⟨99, _⟩ => ⟨S1700000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S64x128, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_1_0_0_n_n_wf : DotDims.WF S5000x128 S128x128 S5000x128 [1] [1] [0] [0] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S64x128_S5000x64_1_1_0_0_n_n_wf : DotDims.WF S5000x128 S64x128 S5000x64 [1] [1] [0] [0] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x64 : Shape := ⟨2, ![128, 64]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S64x128, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S128x128, .f32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S128x128, .f32⟩
  | 73 => ⟨S100000x128, .f32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S128x64, .f32⟩
  | 2 => ⟨S100000x64, .f32⟩
  | 3 => ⟨S_, .f32⟩
  | 4 => ⟨S1700000, .f32⟩
  | 5 => ⟨S_, .f32⟩
  | 6 => ⟨S100000, .f32⟩
  | 7 => ⟨S1700000x1, .i32⟩
  | 8 => ⟨S100000, .f32⟩
  | 9 => ⟨S_, .f32⟩
  | 10 => ⟨S100000, .f32⟩
  | 11 => ⟨S100000, .i1⟩
  | 12 => ⟨S100000, .f32⟩
  | 13 => ⟨S_, .f32⟩
  | 14 => ⟨S_, .f32⟩
  | 15 => ⟨S100000, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x64, .f32⟩
  | 45 => ⟨S1700000x1, .f32⟩
  | 46 => ⟨S1700000x64, .f32⟩
  | 47 => ⟨S1700000x64, .f32⟩
  | 48 => ⟨S_, .f32⟩
  | 49 => ⟨S100000x64, .f32⟩
  | 50 => ⟨S1700000x1, .i32⟩
  | 51 => ⟨S100000x64, .f32⟩
  | 52 => ⟨S1x64, .f32⟩
  | 53 => ⟨S100000x64, .f32⟩
  | 54 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_19 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_20 : Ref sig .tc := ⟨.hbm, 131, rfl⟩
abbrev main_v93 : Ref sig .tc := ⟨.hbm, 132, rfl⟩
abbrev main_cst_21 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_22 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_23 : Ref sig .tc := ⟨.hbm, 141, rfl⟩
abbrev main_call4_v0 : Ref sig .tc := ⟨.hbm, 142, rfl⟩
abbrev main_call4_v1 : Ref sig .tc := ⟨.hbm, 143, rfl⟩
abbrev main_v100 : Ref sig .tc := ⟨.hbm, 144, rfl⟩
abbrev main_c_24 : Ref sig .tc := ⟨.hbm, 145, rfl⟩
abbrev main_v101 : Ref sig .tc := ⟨.hbm, 146, rfl⟩
abbrev main_v102 : Ref sig .tc := ⟨.hbm, 147, rfl⟩
abbrev main_c_25 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_26 : Ref sig .tc := ⟨.hbm, 154, rfl⟩
abbrev main_v108 : Ref sig .tc := ⟨.hbm, 155, rfl⟩
abbrev main_v109 : Ref sig .tc := ⟨.hbm, 156, rfl⟩
abbrev main_c_27 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_c_28 : Ref sig .tc := ⟨.hbm, 164, rfl⟩
abbrev main_v116 : Ref sig .tc := ⟨.hbm, 165, rfl⟩
abbrev main_v117 : Ref sig .tc := ⟨.hbm, 166, rfl⟩
abbrev main_c_29 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_30 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  transposes_S128x128_S128x128_1_0 : S128x128.Transposes [1, 0] S128x128
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with its RESULT named.

  The program is four tiled regions among stretches of host operations. The generated frame module already cuts
  @main into those ten segments and names the buffer contents at every boundary between them (`Gen.W0` … `Gen.W10`:
  a stretch folds its operations over the contents before it, a region replaces its arrays by what its write-backs
  leave). Running the segments from the launch memory, every unscoped buffer ends at the last boundary's contents
  `Gen.W10`. The generated frame reads only the argument buffers off that final state; here the result buffer is read
  as well: every execution terminates with the result at `Gen.W10 … main_v75` and the arguments as launched. What
  `Gen.W10 … main_v75` is, as a function of the arguments, is the business of the other modules.
-/
import proofs.«131094_j11424613007606_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the library's theorem about a run of segments are found by unifying its conclusion with
-- this one, which takes unfolding plain definitions in a metavariable's type
set_option backward.isDefEq.respectTransparency.types false in
/-- Every weakly fair execution of @main terminates, nothing faulting, with the result buffer at the last segment
    boundary's contents and the arguments as launched: the segments run from the launch memory, and the final state
    read at every unscoped buffer. -/
theorem run_named : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.LibDense.lean ====
/-
  The pieces of a dense layer, read one entry at a time, on the extended reals.

  * `mmT x w` is the product of `x : [M, K]` with the TRANSPOSE of `w : [N, K]`: entry (i, j) is the sum over k of
    x (i, k) · w (j, k). A contraction whose dimension numbers contract the second axis of both operands denotes
    exactly this sum (`sum_contr_eq_mmT`).
  * `biasRelu a b` adds the row `b : [1, K]` to every row of `a : [M, K]` and takes the maximum with a threshold `z`;
    `addRow a b` only adds the row.
-/
import Idealize.ShloMosaic.PureOps.Ideal.Laws
import Idealize.ShloMosaic.Lib.ValueIdx

noncomputable section

namespace Cert.LibDense

open Idealize.ShloMosaic Idealize.ShloMosaic.ValueIdx

/-- `x · wᵀ`: entry (i, j) is the sum over k of x (i, k) · w (j, k). -/
def mmT {M K N : Nat} (x : (⟨2, ![M, K]⟩ : Shape).Idx → EReal) (w : (⟨2, ![N, K]⟩ : Shape).Idx → EReal) :
    (⟨2, ![M, N]⟩ : Shape).Idx → EReal :=
  fun i => ∑ k : Fin K, x (ix2 (i 0) k) * w (ix2 (i 1) k)

/-- Row `b` added to every row of `a`, then the maximum with `z` entry by entry. -/
def biasRelu {M K : Nat} (z : EReal) (a : (⟨2, ![M, K]⟩ : Shape).Idx → EReal) (b : (⟨2, ![1, K]⟩ : Shape).Idx → EReal) :
    (⟨2, ![M, K]⟩ : Shape).Idx → EReal :=
  fun i => max (a i + b (ix2 (0 : Fin 1) (i 1))) z

/-- Row `b` added to every row of `a`. -/
def addRow {M K : Nat} (a : (⟨2, ![M, K]⟩ : Shape).Idx → EReal) (b : (⟨2, ![1, K]⟩ : Shape).Idx → EReal) :
    (⟨2, ![M, K]⟩ : Shape).Idx → EReal :=
  fun i => a i + b (ix2 (0 : Fin 1) (i 1))

/-- The sum over the index of a contraction of BOTH operands' second axes is `mmT`: the left operand is read along
    row `i 0`, the right operand along row `i 1`. The four hypotheses say which coordinate of the output index or of
    the contraction index each operand coordinate is. -/
theorem sum_contr_eq_mmT {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : (⟨2, ![M, K]⟩ : Shape).Idx → EReal) (r : (⟨2, ![N, K]⟩ : Shape).Idx → EReal) (i : (⟨2, ![M, N]⟩ : Shape).Idx) :
    ∑ q : D.contr.Idx, l (D.lhsIdx i q) * r (D.rhsIdx i q) = mmT l r i := by
  unfold mmT
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 (i 1) k := funext fun a => Fin.ext (by
    match a with
    | ⟨0, _⟩ => exact hr0 _ _
    | ⟨1, _⟩ => exact (hr1 _ _).trans hk)
  rw [el, er]
  rfl

end Cert.LibDense

end
-- ==== Proof.RefLayers.lean ====
/-
  The reference's three layers, stage by stage, as the dense-layer functions.

  Each layer of the reference multiplies by the transposed weights (a plain contraction with the transposed array),
  aggregates over the edges (a gather, a scaling and a scatter-add: left as the opaque stages they are), adds the bias
  row to every row and, after the first two layers, takes the maximum with zero. Read at an entry, the product is
  `x · wᵀ` (the sum over k of x (i, k) · w (j, k)), and the bias and threshold steps are `biasRelu` / `addRow` of the
  aggregated array and any [1, K] array holding the bias as its one row.
-/
import proofs.«131094_j11424613007606_1_alg».proof.Proof.RefRead
import proofs.«131094_j11424613007606_1_alg».proof.Proof.LibDense

noncomputable section

namespace Cert.ReferenceIdeal.Layers

open Cert.ReferenceIdeal Cert.ReferenceIdeal.Gen Cert.ReferenceIdeal.Read Cert.LibDense
open Idealize.ShloMosaic Idealize.ShloMosaic.TcCoe Idealize.ShloMosaic.ValueIdx

/-! ## The three products -/

/-- Layer 1's product is `x · W1ᵀ`. -/
theorem v8_eq (x0 : (⟨S100000x128, .f32⟩ : BufTy).Contents (Elt Ideal)) (x2 : (⟨S128x128, .f32⟩ : BufTy).Contents (Elt Ideal)) :
    val_main_v8 (F := Ideal) x0 x2 = mmT (M := 100000) (K := 128) (N := 128) x0 x2 := by
  funext i
  rw [val_main_v8_apply]
  unfold mmT
  refine Finset.sum_congr rfl fun k _ => ?_
  rw [val_main_v7_apply]
  have e1 : lidx_main_v8 i k = ix2 (i 0) k := funext fun a => Fin.ext (by
    match a with
    | ⟨0, _⟩ => rfl
    | ⟨1, _⟩ => rfl)
  have e2 : idx_main_v7 (ridx_main_v8 i k) = ix2 (i 1) k := funext fun a => Fin.ext (by
    match a with
    | ⟨0, _⟩ => rfl
    | ⟨1, _⟩ => rfl)
  rw [e1, e2]
  rfl

/-- Layer 2's product is `h · W2ᵀ` of the activated first layer `h`. -/
theorem v50_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v50 (F := Ideal) x0 x1 x2 x3 x4 = mmT (M := 100000) (K := 128) (N := 128) (val_main_v48 (F := Ideal) x0 x1 x2 x3) x4 := by
  funext i
  rw [val_main_v50_apply]
  unfold mmT
  refine Finset.sum_congr rfl fun k _ => ?_
  rw [val_main_v49_apply]
  have e1 : lidx_main_v50 i k = ix2 (i 0) k := funext fun a => Fin.ext (by
    match a with
    | ⟨0, _⟩ => rfl
    | ⟨1, _⟩ => rfl)
  have e2 : idx_main_v49 (ridx_main_v50 i k) = ix2 (i 1) k := funext fun a => Fin.ext (by
    match a with
    | ⟨0, _⟩ => rfl
    | ⟨1, _⟩ => rfl)
  rw [e1, e2]
  rfl

/-- Layer 3's product is `h · W3ᵀ` of the activated second layer `h`. -/
theorem v92_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S64x128, .f32⟩ : BufTy).Contents (Elt Ideal)) :
    val_main_v92 (F := Ideal) x0 x1 x2 x3 x4 x5 x6 = mmT (M := 100000) (K := 128) (N := 64) (val_main_v90 (F := Ideal) x0 x1 x2 x3 x4 x5) x6 := by
  funext i
  rw [val_main_v92_apply]
  unfold mmT
  refine Finset.sum_congr rfl fun k _ => ?_
  rw [val_main_v91_apply]
  have e1 : lidx_main_v92 i k = ix2 (i 0) k := funext fun a => Fin.ext (by
    match a with
    | ⟨0, _⟩ => rfl
    | ⟨1, _⟩ => rfl)
  have e2 : idx_main_v91 (ridx_main_v92 i k) = ix2 (i 1) k := funext fun a => Fin.ext (by
    match a with
    | ⟨0, _⟩ => rfl
    | ⟨1, _⟩ => rfl)
  rw [e1, e2]
  rfl

/-! ## Bias rows and thresholds -/

/-- After layer 1: the aggregated array plus the bias row, against zero, for any [1, 128] array holding the bias. -/
theorem v48_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (b : S1x128.Idx → EReal)
    (hb : ∀ q : Fin 128, b (ix2 (0 : Fin 1) q) = x3 (ix1 q)) :
    val_main_v48 (F := Ideal) x0 x1 x2 x3 = biasRelu (M := 100000) (K := 128) (Ideal.ofBits .f32 0x00000000#32) (val_main_v44 (F := Ideal) x0 x1 x2) b := by
  funext i
  rw [val_main_v48_apply, val_main_v47_apply, val_main_call1_v0_apply, val_main_call1_cst_apply, val_main_v46_apply, val_main_v45_apply]
  unfold biasRelu
  rw [hb (i 1)]
  have e : idx_main_v45 (idx_main_v46 i) = ix1 (i 1) := funext fun a => Fin.ext (by
    match a with
    | ⟨0, _⟩ => rfl)
  rw [e]
  rfl

/-- After layer 2: the same with the second bias. -/
theorem v90_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (b : S1x128.Idx → EReal)
    (hb : ∀ q : Fin 128, b (ix2 (0 : Fin 1) q) = x5 (ix1 q)) :
    val_main_v90 (F := Ideal) x0 x1 x2 x3 x4 x5 = biasRelu (M := 100000) (K := 128) (Ideal.ofBits .f32 0x00000000#32) (val_main_v86 (F := Ideal) x0 x1 x2 x3 x4) b := by
  funext i
  rw [val_main_v90_apply, val_main_v89_apply, val_main_call3_v0_apply, val_main_call3_cst_apply, val_main_v88_apply, val_main_v87_apply]
  unfold biasRelu
  rw [hb (i 1)]
  have e : idx_main_v87 (idx_main_v88 i) = ix1 (i 1) := funext fun a => Fin.ext (by
    match a with
    | ⟨0, _⟩ => rfl)
  rw [e]
  rfl

/-- The result: the third aggregated array plus the third bias row, for any [1, 64] array holding the bias. -/
theorem v131_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S64x128, .f32⟩ : BufTy).Contents (Elt Ideal)) (x7 : (⟨S64, .f32⟩ : BufTy).Contents (Elt Ideal)) (b : S1x64.Idx → EReal)
    (hb : ∀ q : Fin 64, b (ix2 (0 : Fin 1) q) = x7 (ix1 q)) :
    val_main_v131 (F := Ideal) x0 x1 x2 x3 x4 x5 x6 x7 = addRow (M := 100000) (K := 64) (val_main_v128 (F := Ideal) x0 x1 x2 x3 x4 x5 x6) b := by
  funext i
  rw [val_main_v131_apply, val_main_v130_apply, val_main_v129_apply]
  unfold addRow
  rw [hb (i 1)]
  have e : idx_main_v129 (idx_main_v130 i) = ix1 (i 1) := funext fun a => Fin.ext (by
    match a with
    | ⟨0, _⟩ => rfl)
  rw [e]
  rfl

end Cert.ReferenceIdeal.Layers

end
-- ==== Proof.RefNorm.lean ====
/-
  The reference computes the edge weights once per layer, each time by the same operations on the same index arrays:
  the three computations are one array.
-/
import proofs.«131094_j11424613007606_1_alg».proof.Proof.RefRead

set_option maxRecDepth 16384

noncomputable section

namespace Cert.ReferenceIdeal.Layers

open Cert.ReferenceIdeal Cert.ReferenceIdeal.Gen Cert.ReferenceIdeal.Read
open Idealize.ShloMosaic Idealize.ShloMosaic.TcCoe

/-- The second layer's edge weights are the first layer's. -/
theorem norm2_eq (x1 : (⟨S2x1600000, .i32⟩ : BufTy).Contents (Elt Ideal)) :
    val_main_v73 (F := Ideal) x1 = val_main_v31 (F := Ideal) x1 := rfl

/-- The third layer's edge weights are the first layer's. -/
theorem norm3_eq (x1 : (⟨S2x1600000, .i32⟩ : BufTy).Contents (Elt Ideal)) :
    val_main_v115 (F := Ideal) x1 = val_main_v31 (F := Ideal) x1 := rfl

end Cert.ReferenceIdeal.Layers

end
-- ==== Proof.HostA.lean ====
/-
  The host operations before the first region, read off the launch memory.

  Before its first tiled region the program computes, from the edge list alone, the source and destination index
  arrays (each row of the edge list followed by 0 … 99999, the self loops), the in-degree of every node (a
  scatter-add of ones), its inverse square root where the degree is positive and zero elsewhere, and the edge weights
  (the product of that quantity at an edge's two ends). The reference computes the same three arrays by the same
  operations: here each is identified with the reference's stage of the same name, and every argument buffer is
  seen to be untouched by these operations.
-/
import proofs.«131094_j11424613007606_1_alg».proof.Proof.Gen.KernelIdeal.Frame
import proofs.«131094_j11424613007606_1_alg».proof.Proof.RefRead
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## After the first stretch (the index arrays, the degrees, their comparison with zero and inverse square root) -/

theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

theorem W1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  rfl

theorem W1_v12 : W1 m ρ c (Proc.devRef .tc main_v12) = Cert.ReferenceIdeal.Read.val_main_v14 (F := Ideal) (m ((c : Thread nD τ).loc main_arg1)) := by
  show StableHlo.after hostOps0 (W0 m ρ c) (Proc.devRef .tc main_v12) = _
  after_results_simp
  rfl

theorem W1_v13 : W1 m ρ c (Proc.devRef .tc main_v13) = Cert.ReferenceIdeal.Read.val_main_v15 (F := Ideal) (m ((c : Thread nD τ).loc main_arg1)) := by
  show StableHlo.after hostOps0 (W0 m ρ c) (Proc.devRef .tc main_v13) = _
  after_results_simp
  rfl

theorem W1_cst_2 : W1 m ρ c (Proc.devRef .tc main_cst_2) = Cert.ReferenceIdeal.Read.val_main_cst_2 (F := Ideal) := by
  show StableHlo.after hostOps0 (W0 m ρ c) (Proc.devRef .tc main_cst_2) = _
  after_results_simp
  rfl

/-! ## After the selection (zero where the degree is not positive) -/

theorem W2_v3 : W2 m ρ c (Proc.devRef .tc main_v3) = Cert.ReferenceIdeal.Read.val_main_v3 (F := Ideal) (m ((c : Thread nD τ).loc main_arg1)) := by
  show StableHlo.after hostOps0_1 (StableHlo.after hostOps0 (W0 m ρ c)) (Proc.devRef .tc main_v3) = _
  after_results_simp
  rfl

theorem W2_v6 : W2 m ρ c (Proc.devRef .tc main_v6) = Cert.ReferenceIdeal.Read.val_main_v6 (F := Ideal) (m ((c : Thread nD τ).loc main_arg1)) := by
  show StableHlo.after hostOps0_1 (StableHlo.after hostOps0 (W0 m ρ c)) (Proc.devRef .tc main_v6) = _
  after_results_simp
  rfl

theorem W2_v14 : W2 m ρ c (Proc.devRef .tc main_v14) = Cert.ReferenceIdeal.Read.val_main_v16 (F := Ideal) (m ((c : Thread nD τ).loc main_arg1)) := by
  show StableHlo.after hostOps0_1 (W1 m ρ c) _ = _
  generalize hW : W1 m ρ c = Wv
  after_results_simp
  show select (Wv (Proc.devRef .tc main_v12)) (Wv (Proc.devRef .tc main_v13))
      (broadcastInDim S100000 ![] bcast_S_S100000 (id (Wv (Proc.devRef .tc main_cst_2)))) = _
  subst hW
  rw [W1_v12, W1_v13, W1_cst_2]
  rfl

/-! ## At the first region's entry (the edge weights) -/

theorem W3_v3 : W3 m ρ c (Proc.devRef .tc main_v3) = Cert.ReferenceIdeal.Read.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  rfl

theorem W3_v6 : W3 m ρ c (Proc.devRef .tc main_v6) = Cert.ReferenceIdeal.Read.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp
  rfl

theorem W3_v29 : W3 m ρ c (Proc.devRef .tc main_v29) = Cert.ReferenceIdeal.Read.val_main_v31 (F := Ideal) (m ((c : Thread nD τ).loc main_arg1)) := by
  show StableHlo.after hostOps0_2 (W2 m ρ c) _ = _
  generalize hW : W2 m ρ c = Wv
  after_results_simp
  subst hW
  rw [W2_v3, W2_v6, W2_v14]
  rfl

/-! ## The arguments are untouched -/

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp

theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp

theorem W3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp

end Cert.KernelIdeal.Host

end
-- ==== Proof.Region0.lean ====
/-
  The first region: a row-tiled product with the transposed weights.

  The region walks 20 grid points; point `t` stages rows 5000·t … 5000·t + 4999 of the left array, the whole
  [128, 128] weight array, computes for each staged row its 128 products against the weight array's ROWS (the
  matrix unit contracts the second axis of both operands, into a zero accumulator; rounding an operand to a
  shorter format is the identity on extended reals), and writes the [5000, 128] block back to the same rows of the
  output. The blocks partition the 100000 rows, so after the region the output array is `x · wᵀ` entry by entry:
  entry (i, j) is the sum over k of x (i, k) · w (j, k) — whatever the two arrays hold when the region is entered.
-/
import proofs.«131094_j11424613007606_1_alg».proof.Proof.Gen.KernelIdeal.Frame
import proofs.«131094_j11424613007606_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.LibDense
open Idealize.ShloMosaic Idealize.ShloMosaic.TcCoe Idealize.ShloMosaic.ValueIdx
open Idealize.ShloMosaic.Pipeline (Dat)

/-! ## The matrix unit's dimension numbers: both operands contracted on their second axis -/

theorem dot_l0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
theorem dot_l1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
theorem dot_r0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
theorem dot_r1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-! ## The body's result at an entry -/

/-- Entry `j` of the block the body stores is entry `j` of the staged rows times the staged weights' transpose. -/
theorem pay_apply (x0 : FVec Ideal S5000x128 .f32) (x1 : FVec Ideal S128x128 .f32) (j : S5000x128.Idx) :
    k0_pay1 (F := Ideal) x0 x1 j = mmT (M := 5000) (K := 128) (N := 128) x0 x1 j := by
  unfold k0_pay1
  refine (Ideal.matmul_constant_zero_apply dot_S5000x128_S128x128_S5000x128_1_1_0_0_n_n none _ _ j).trans ?_
  exact sum_contr_eq_mmT (M := 5000) (K := 128) (N := 128) dot_S5000x128_S128x128_S5000x128_1_1_0_0_n_n rfl rfl dot_l0 dot_l1 dot_r0 dot_r1 x0 x1 j

/-- The same against whole arrays: when the staged row `j 0` is row `i 0` of `A0` and the staged weights' row `j 1` is
    row `i 1` of `A1`, the stored entry `j` is entry `i` of `A0 · A1ᵀ`. -/
theorem pay_rows (A0 : S100000x128.Idx → EReal) (A1 : S128x128.Idx → EReal) (x0 : FVec Ideal S5000x128 .f32) (x1 : FVec Ideal S128x128 .f32)
    (j : S5000x128.Idx) (i : S100000x128.Idx)
    (h0 : ∀ k : Fin 128, x0 (ix2 (j 0) k) = A0 (ix2 (i 0) k)) (h1 : ∀ k : Fin 128, x1 (ix2 (j 1) k) = A1 (ix2 (i 1) k)) :
    k0_pay1 (F := Ideal) x0 x1 j = mmT (M := 100000) (K := 128) (N := 128) A0 A1 i := by
  rw [pay_apply]
  unfold mmT
  exact Finset.sum_congr rfl fun k _ => by rw [h0 k, h1 k]

/-! ## From blocks to the array -/

theorem hz : (![0, 0] : Fin 2 → Nat) = fun _ => 0 := funext fun a => by fin_cases a <;> rfl

/-- The printed index maps, decided over the 20 grid points: the row windows sit at block `t` of the row axis, and no
    window moves along the other axis; the weights' window never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of `x · wᵀ` of the two arrays as the region finds them. -/
theorem flushed_eq (c : Dev nD) (t : Fin cfg0.N) :
    (dat0 V c).flushed 2 t = ((cfg0.win 2).blk t).view.read (Elt Ideal)
      (mmT (M := 100000) (K := 128) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j = mmT (M := 100000) (K := 128) (N := 128) (V c main_arg0) (V c main_arg2) (((cfg0.win 2).blk t).view.emb j)
  refine pay_rows (V c main_arg0) (V c main_arg2) (iblk0 V c 0 t) (iblk0 V c 1 t) j (((cfg0.win 2).blk t).view.emb j) (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 (j 1) k)) = V c main_arg2 (ix2 ((((cfg0.win 2).blk t).view.emb j) 1) k)
    refine congrArg (V c main_arg2) (funext fun a => Fin.ext ?_)
    match a with
    | ⟨0, _⟩ => show win0_1.index t (0 : Fin 2) * 128 + 1 * (j 1).val = win0_2.index t (1 : Fin 2) * 128 + 1 * (j 1).val; omega
    | ⟨1, _⟩ => show win0_1.index t (1 : Fin 2) * 128 + 1 * k.val = k.val; omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the output lies in the block of point `r / 5000`: the blocks cover the array. -/
theorem cover (i : S100000x128.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  have hq : (i 0).val / 5000 < cfg0.N := by omega
  refine ⟨⟨(i 0).val / 5000, hq⟩, flush0_2 _, ?_⟩
  obtain ⟨e0, e1, e2, e3, e4, e5⟩ := idx_facts ⟨(i 0).val / 5000, hq⟩
  rw [mem_blk]
  intro a
  match a with
  | ⟨0, _⟩ =>
    show win0_2.index ⟨(i 0).val / 5000, hq⟩ (0 : Fin 2) * 5000 ≤ (i 0).val ∧ (i 0).val < win0_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hq⟩ (1 : Fin 2) * 128 ≤ (i 1).val ∧ (i 1).val < win0_2.index ⟨(i 0).val / 5000, hq⟩ (1 : Fin 2) * 128 + 128
    rw [e5]; omega

/-- THE OUTPUT ARRAY after the region: `x · wᵀ` of the two input arrays as the region finds them. -/
theorem final (c : Dev nD) : (dat0 V c).arrAt 2 cfg0.N = mmT (M := 100000) (K := 128) (N := 128) (V c main_arg0) (V c main_arg2) :=
  (dat0 V c).arrAt_eq_of_cover 2 _ (fun t _ => flushed_eq V c t) cover

end Cert.KernelIdeal.Region0

end
-- ==== Proof.Region1.lean ====
/-
  Region 1: bias row, threshold at zero, then the row-tiled product with the transposed weights.

  Point `t` of the 20 stages rows 5000·t … 5000·t + 4999 of the aggregated array, the one-row bias array and the
  whole [128, 128] weight array. The body adds the bias row to every staged row, takes the maximum with zero entry by
  entry, and multiplies the result by the weight array's ROWS (both operands contracted on their second axis, a zero
  accumulator; rounding an operand to a shorter format is the identity on extended reals). The [5000, 128] blocks
  partition the output's rows, so after the region the output array is `max (a + b, 0) · wᵀ` entry by entry —
  whatever the three arrays hold when the region is entered.
-/
import proofs.«131094_j11424613007606_1_alg».proof.Proof.Gen.KernelIdeal.Frame
import proofs.«131094_j11424613007606_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.LibDense
open Idealize.ShloMosaic Idealize.ShloMosaic.TcCoe Idealize.ShloMosaic.ValueIdx
open Idealize.ShloMosaic.Pipeline (Dat)

/-! ## The matrix unit's dimension numbers: both operands contracted on their second axis -/

theorem dot_l0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
theorem dot_l1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
theorem dot_r0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
theorem dot_r1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-! ## The body's result at an entry -/

/-- The staged rows plus the bias row, against zero, at an entry. -/
theorem act_apply (x0 : FVec Ideal S5000x128 .f32) (x1 : FVec Ideal S1x128 .f32) (p : Fin 5000) (q : Fin 128) :
    maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) (ix2 p q)
    = biasRelu (M := 5000) (K := 128) (Ideal.ofBits .f32 0x00000000#32) x0 x1 (ix2 p q) := by
  rw [shapeCast_self, shapeCast_self]
  show max (x0 (ix2 p q) + broadcastTo S5000x128 x1 broadcasts_S1x128_S5000x128 (ix2 p q)) _ = max (x0 (ix2 p q) + x1 (ix2 (0 : Fin 1) q)) _
  rw [broadcastTo_1b_ab_apply]
  rfl

/-- Entry `j` of the block the body stores: the activated staged rows times the staged weights' transpose. -/
theorem pay_apply (x0 : FVec Ideal S5000x128 .f32) (x1 : FVec Ideal S1x128 .f32) (x2 : FVec Ideal S128x128 .f32) (j : S5000x128.Idx) :
    k1_pay1 (F := Ideal) x0 x1 x2 j
      = mmT (M := 5000) (K := 128) (N := 128) (biasRelu (M := 5000) (K := 128) (Ideal.ofBits .f32 0x00000000#32) x0 x1) x2 j := by
  unfold k1_pay1
  refine (Ideal.matmul_constant_zero_apply dot_S5000x128_S128x128_S5000x128_1_1_0_0_n_n none _ _ j).trans ?_
  refine (sum_contr_eq_mmT (M := 5000) (K := 128) (N := 128) dot_S5000x128_S128x128_S5000x128_1_1_0_0_n_n rfl rfl dot_l0 dot_l1 dot_r0 dot_r1 _ _ j).trans ?_
  unfold mmT
  refine Finset.sum_congr rfl fun k _ => ?_
  exact congrArg (· * x2 (ix2 (j 1) k)) (act_apply x0 x1 (j 0) k)

/-- The same against whole arrays: when the staged row `j 0` is row `i 0` of `A0`, the staged bias row is `A1`'s row, and
    the staged weights' row `j 1` is row `i 1` of `A2`, the stored entry `j` is entry `i` of `max (A0 + A1, 0) · A2ᵀ`. -/
theorem pay_rows (A0 : S100000x128.Idx → EReal) (A1 : S1x128.Idx → EReal) (A2 : S128x128.Idx → EReal)
    (x0 : FVec Ideal S5000x128 .f32) (x1 : FVec Ideal S1x128 .f32) (x2 : FVec Ideal S128x128 .f32)
    (j : S5000x128.Idx) (i : S100000x128.Idx)
    (h0 : ∀ k : Fin 128, x0 (ix2 (j 0) k) = A0 (ix2 (i 0) k)) (h1 : ∀ k : Fin 128, x1 (ix2 (0 : Fin 1) k) = A1 (ix2 (0 : Fin 1) k))
    (h2 : ∀ k : Fin 128, x2 (ix2 (j 1) k) = A2 (ix2 (i 1) k)) :
    k1_pay1 (F := Ideal) x0 x1 x2 j
      = mmT (M := 100000) (K := 128) (N := 128) (biasRelu (M := 100000) (K := 128) (Ideal.ofBits .f32 0x00000000#32) A0 A1) A2 i := by
  rw [pay_apply]
  unfold mmT biasRelu
  refine Finset.sum_congr rfl fun k _ => ?_
  show max (x0 (ix2 (j 0) k) + x1 (ix2 (0 : Fin 1) k)) _ * x2 (ix2 (j 1) k) = max (A0 (ix2 (i 0) k) + A1 (ix2 (0 : Fin 1) k)) _ * A2 (ix2 (i 1) k)
  rw [h0 k, h1 k, h2 k]

/-! ## From blocks to the array -/

theorem hz : (![0, 0] : Fin 2 → Nat) = fun _ => 0 := funext fun a => by fin_cases a <;> rfl

/-- The printed index maps, decided over the 20 grid points: the row windows sit at block `t` of the row axis; the bias
    and weight windows never move. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of `max (a + b, 0) · wᵀ` of the three arrays as the region finds them. -/
theorem flushed_eq (c : Dev nD) (t : Fin cfg1.N) :
    (dat1 V c).flushed 3 t = ((cfg1.win 3).blk t).view.read (Elt Ideal)
      (mmT (M := 100000) (K := 128) (N := 128) (biasRelu (M := 100000) (K := 128) (Ideal.ofBits .f32 0x00000000#32) (V c main_v43) (V c main_v44)) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx_facts t
  funext j
  show k1_pay1 (iblk1 V c 0 t) (iblk1 V c 1 t) (iblk1 V c 2 t) j
    = mmT (M := 100000) (K := 128) (N := 128) (biasRelu (M := 100000) (K := 128) (Ideal.ofBits .f32 0x00000000#32) (V c main_v43) (V c main_v44)) (V c main_arg4) (((cfg1.win 3).blk t).view.emb j)
  refine pay_rows (V c main_v43) (V c main_v44) (V c main_arg4) (iblk1 V c 0 t) (iblk1 V c 1 t) (iblk1 V c 2 t) j (((cfg1.win 3).blk t).view.emb j) (fun k => ?_) (fun k => ?_) (fun k => ?_)
  · show V c main_v43 (((cfg1.win 0).blk t).view.emb (ix2 (j 0) k)) = V c main_v43 (ix2 ((((cfg1.win 3).blk t).view.emb j) 0) k)
    refine congrArg (V c main_v43) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · show V c main_v44 (((cfg1.win 1).blk t).view.emb (ix2 (0 : Fin 1) k)) = V c main_v44 (ix2 (0 : Fin 1) k)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg4 (((cfg1.win 2).blk t).view.emb (ix2 (j 1) k)) = V c main_arg4 (ix2 ((((cfg1.win 3).blk t).view.emb j) 1) k)
    refine congrArg (V c main_arg4) (funext fun a => Fin.ext ?_)
    match a with
    | ⟨0, _⟩ => show win1_2.index t (0 : Fin 2) * 128 + 1 * (j 1).val = win1_3.index t (1 : Fin 2) * 128 + 1 * (j 1).val; omega
    | ⟨1, _⟩ => show win1_2.index t (1 : Fin 2) * 128 + 1 * k.val = k.val; omega

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Row `r` of the output lies in the block of point `r / 5000`: the blocks cover the array. -/
theorem cover (i : S100000x128.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  have hq : (i 0).val / 5000 < cfg1.N := by omega
  refine ⟨⟨(i 0).val / 5000, hq⟩, flush1_3 _, ?_⟩
  obtain ⟨e0, e1, e2, e3, e4, e5, e6, e7⟩ := idx_facts ⟨(i 0).val / 5000, hq⟩
  rw [mem_blk]
  intro a
  match a with
  | ⟨0, _⟩ =>
    show win1_3.index ⟨(i 0).val / 5000, hq⟩ (0 : Fin 2) * 5000 ≤ (i 0).val ∧ (i 0).val < win1_3.index ⟨(i 0).val / 5000, hq⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, hq⟩ (1 : Fin 2) * 128 ≤ (i 1).val ∧ (i 1).val < win1_3.index ⟨(i 0).val / 5000, hq⟩ (1 : Fin 2) * 128 + 128
    rw [e7]; omega

/-- THE OUTPUT ARRAY after the region: `max (a + b, 0) · wᵀ` of the three input arrays as the region finds them. -/
theorem final (c : Dev nD) : (dat1 V c).arrAt 3 cfg1.N
    = mmT (M := 100000) (K := 128) (N := 128) (biasRelu (M := 100000) (K := 128) (Ideal.ofBits .f32 0x00000000#32) (V c main_v43) (V c main_v44)) (V c main_arg4) :=
  (dat1 V c).arrAt_eq_of_cover 3 _ (fun t _ => flushed_eq V c t) cover

end Cert.KernelIdeal.Region1

end
-- ==== Proof.Stage1.lean ====
/-
  Through the first two regions.

  The first region leaves `x · W1ᵀ` in its output array; the host operations that follow gather its rows along the
  source indices, scale each by its edge weight and scatter-add them at the destination indices — the reference's own
  aggregation stage of the same product —, and recast the first bias as a one-row array. The second region then leaves
  `max (agg + b1, 0) · W2ᵀ`, which is the reference's second product. The index arrays, the edge weights and the
  remaining arguments pass through untouched.
-/
import proofs.«131094_j11424613007606_1_alg».proof.Proof.Gen.KernelIdeal.Frame
import proofs.«131094_j11424613007606_1_alg».proof.Proof.RefRead
import proofs.«131094_j11424613007606_1_alg».proof.Proof.RefLayers
import proofs.«131094_j11424613007606_1_alg».proof.Proof.HostA
import proofs.«131094_j11424613007606_1_alg».proof.Proof.Region0
import proofs.«131094_j11424613007606_1_alg».proof.Proof.Region1
import Idealize.ShloMosaic.Lib.StableHlo.Run
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.SL.Sem Cert.LibDense Idealize.ShloMosaic.ValueIdx

variable (m : (ℓ : Loc nD τ sig) → Buf (Elt Ideal) ℓ) (ρ : Dev nD → PrngReg) (c : Dev nD)

/-! ## At the first region's exit -/

theorem W4_v30 : W4 m ρ c (Proc.devRef .tc main_v30) = Cert.ReferenceIdeal.Read.val_main_v8 (F := Ideal) (m ((c : Thread nD τ).loc main_arg0)) (m ((c : Thread nD τ).loc main_arg2)) := by
  refine (W4_arr m ρ c 2).trans ?_
  rw [Region0.final (V3 m ρ) c]
  show mmT (M := 100000) (K := 128) (N := 128) (W3 m ρ c (Proc.devRef .tc main_arg0)) (W3 m ρ c (Proc.devRef .tc main_arg2)) = _
  rw [W3_arg0, W3_arg2]
  exact (Cert.ReferenceIdeal.Layers.v8_eq _ _).symm

theorem W4_v3 : W4 m ρ c (Proc.devRef .tc main_v3) = Cert.ReferenceIdeal.Read.val_main_v3 (F := Ideal) (m ((c : Thread nD τ).loc main_arg1)) := (W4_of_ne m ρ c main_v3 (by decide)).trans (W3_v3 m ρ c)

theorem W4_v6 : W4 m ρ c (Proc.devRef .tc main_v6) = Cert.ReferenceIdeal.Read.val_main_v6 (F := Ideal) (m ((c : Thread nD τ).loc main_arg1)) := (W4_of_ne m ρ c main_v6 (by decide)).trans (W3_v6 m ρ c)

theorem W4_v29 : W4 m ρ c (Proc.devRef .tc main_v29) = Cert.ReferenceIdeal.Read.val_main_v31 (F := Ideal) (m ((c : Thread nD τ).loc main_arg1)) := (W4_of_ne m ρ c main_v29 (by decide)).trans (W3_v29 m ρ c)

theorem W4_arg3 : W4 m ρ c (Proc.devRef .tc main_arg3) = m ((c : Thread nD τ).loc main_arg3) := (W4_of_ne m ρ c main_arg3 (by decide)).trans (W3_arg3 m ρ c)

theorem W4_arg4 : W4 m ρ c (Proc.devRef .tc main_arg4) = m ((c : Thread nD τ).loc main_arg4) := (W4_of_ne m ρ c main_arg4 (by decide)).trans (W3_arg4 m ρ c)

theorem W4_arg5 : W4 m ρ c (Proc.devRef .tc main_arg5) = m ((c : Thread nD τ).loc main_arg5) := (W4_of_ne m ρ c main_arg5 (by decide)).trans (W3_arg5 m ρ c)

theorem W4_arg6 : W4 m ρ c (Proc.devRef .tc main_arg6) = m ((c : Thread nD τ).loc main_arg6) := (W4_of_ne m ρ c main_arg6 (by decide)).trans (W3_arg6 m ρ c)

theorem W4_arg7 : W4 m ρ c (Proc.devRef .tc main_arg7) = m ((c : Thread nD τ).loc main_arg7) := (W4_of_ne m ρ c main_arg7 (by decide)).trans (W3_arg7 m ρ c)

/-! ## At the second region's entry -/

theorem W5_v43 : W5 m ρ c (Proc.devRef .tc main_v43) = Cert.ReferenceIdeal.Read.val_main_v44 (F := Ideal) (m ((c : Thread nD τ).loc main_arg0)) (m ((c : Thread nD τ).loc main_arg1)) (m ((c : Thread nD τ).loc main_arg2)) := by
  show StableHlo.after hostOps1 (W4 m ρ c) _ = _
  generalize hW : W4 m ρ c = Wv
  after_results_simp
  subst hW
  rw [W4_v3, W4_v6, W4_v29, W4_v30]
  rfl

theorem W5_v44 : W5 m ρ c (Proc.devRef .tc main_v44) = shapeCast S1x128 (m ((c : Thread nD τ).loc main_arg3)) shapeCasts_S128_S1x128 := by
  show StableHlo.after hostOps1 (W4 m ρ c) _ = _
  generalize hW : W4 m ρ c = Wv
  after_results_simp
  subst hW
  rw [W4_arg3]
  rfl

theorem W5_v3 : W5 m ρ c (Proc.devRef .tc main_v3) = Cert.ReferenceIdeal.Read.val_main_v3 (F := Ideal) (m ((c : Thread nD τ).loc main_arg1)) := by
  show StableHlo.after hostOps1 (W4 m ρ c) _ = _
  generalize hW : W4 m ρ c = Wv
  after_results_simp
  subst hW
  exact W4_v3 m ρ c

theorem W5_v6 : W5 m ρ c (Proc.devRef .tc main_v6) = Cert.ReferenceIdeal.Read.val_main_v6 (F := Ideal) (m ((c : Thread nD τ).loc main_arg1)) := by
  show StableHlo.after hostOps1 (W4 m ρ c) _ = _
  generalize hW : W4 m ρ c = Wv
  after_results_simp
  subst hW
  exact W4_v6 m ρ c

theorem W5_v29 : W5 m ρ c (Proc.devRef .tc main_v29) = Cert.ReferenceIdeal.Read.val_main_v31 (F := Ideal) (m ((c : Thread nD τ).loc main_arg1)) := by
  show StableHlo.after hostOps1 (W4 m ρ c) _ = _
  generalize hW : W4 m ρ c = Wv
  after_results_simp
  subst hW
  exact W4_v29 m ρ c

theorem W5_arg4 : W5 m ρ c (Proc.devRef .tc main_arg4) = m ((c : Thread nD τ).loc main_arg4) := by
  show StableHlo.after hostOps1 (W4 m ρ c) _ = _
  generalize hW : W4 m ρ c = Wv
  after_results_simp
  subst hW
  exact W4_arg4 m ρ c

theorem W5_arg5 : W5 m ρ c (Proc.devRef .tc main_arg5) = m ((c : Thread nD τ).loc main_arg5) := by
  show StableHlo.after hostOps1 (W4 m ρ c) _ = _
  generalize hW : W4 m ρ c = Wv
  after_results_simp
  subst hW
  exact W4_arg5 m ρ c

theorem W5_arg6 : W5 m ρ c (Proc.devRef .tc main_arg6) = m ((c : Thread nD τ).loc main_arg6) := by
  show StableHlo.after hostOps1 (W4 m ρ c) _ = _
  generalize hW : W4 m ρ c = Wv
  after_results_simp
  subst hW
  exact W4_arg6 m ρ c

theorem W5_arg7 : W5 m ρ c (Proc.devRef .tc main_arg7) = m ((c : Thread nD τ).loc main_arg7) := by
  show StableHlo.after hostOps1 (W4 m ρ c) _ = _
  generalize hW : W4 m ρ c = Wv
  after_results_simp
  subst hW
  exact W4_arg7 m ρ c

/-! ## At the second region's exit -/

theorem W6_v45 : W6 m ρ c (Proc.devRef .tc main_v45) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ?_
  rw [Region1.final (V5 m ρ) c]
  show mmT (M := 100000) (K := 128) (N := 128) (biasRelu (M := 100000) (K := 128) (Ideal.ofBits .f32 0x00000000#32) (W5 m ρ c (Proc.devRef .tc main_v43)) (W5 m ρ c (Proc.devRef .tc main_v44))) (W5 m ρ c (Proc.devRef .tc main_arg4)) = _
  rw [W5_v43, W5_v44, W5_arg4, Cert.ReferenceIdeal.Layers.v50_eq,
    Cert.ReferenceIdeal.Layers.v48_eq _ _ _ _ (shapeCast S1x128 (m ((c : Thread nD τ).loc main_arg3)) shapeCasts_S128_S1x128) (fun q => shapeCast_a_1a_apply _ _ 0 q)]

theorem W6_v3 : W6 m ρ c (Proc.devRef .tc main_v3) = Cert.ReferenceIdeal.Read.val_main_v3 (F := Ideal) (m ((c : Thread nD τ).loc main_arg1)) := (W6_of_ne m ρ c main_v3 (by decide)).trans (W5_v3 m ρ c)

theorem W6_v6 : W6 m ρ c (Proc.devRef .tc main_v6) = Cert.ReferenceIdeal.Read.val_main_v6 (F := Ideal) (m ((c : Thread nD τ).loc main_arg1)) := (W6_of_ne m ρ c main_v6 (by decide)).trans (W5_v6 m ρ c)

theorem W6_v29 : W6 m ρ c (Proc.devRef .tc main_v29) = Cert.ReferenceIdeal.Read.val_main_v31 (F := Ideal) (m ((c : Thread nD τ).loc main_arg1)) := (W6_of_ne m ρ c main_v29 (by decide)).trans (W5_v29 m ρ c)

theorem W6_arg5 : W6 m ρ c (Proc.devRef .tc main_arg5) = m ((c : Thread nD τ).loc main_arg5) := (W6_of_ne m ρ c main_arg5 (by decide)).trans (W5_arg5 m ρ c)

theorem W6_arg6 : W6 m ρ c (Proc.devRef .tc main_arg6) = m ((c : Thread nD τ).loc main_arg6) := (W6_of_ne m ρ c main_arg6 (by decide)).trans (W5_arg6 m ρ c)

theorem W6_arg7 : W6 m ρ c (Proc.devRef .tc main_arg7) = m ((c : Thread nD τ).loc main_arg7) := (W6_of_ne m ρ c main_arg7 (by decide)).trans (W5_arg7 m ρ c)

end Cert.KernelIdeal.Host

end
-- ==== Proof.Region2.lean ====
/-
  Region 2: bias row, threshold at zero, then the row-tiled product with the transposed weights.

  Point `t` of the 20 stages rows 5000·t … 5000·t + 4999 of the aggregated array, the one-row bias array and the
  whole [64, 128] weight array. The body adds the bias row to every staged row, takes the maximum with zero entry by
  entry, and multiplies the result by the weight array's ROWS (both operands contracted on their second axis, a zero
  accumulator; rounding an operand to a shorter format is the identity on extended reals). The [5000, 64] blocks
  partition the output's rows, so after the region the output array is `max (a + b, 0) · wᵀ` entry by entry —
  whatever the three arrays hold when the region is entered.
-/
import proofs.«131094_j11424613007606_1_alg».proof.Proof.Gen.KernelIdeal.Frame
import proofs.«131094_j11424613007606_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.LibDense
open Idealize.ShloMosaic Idealize.ShloMosaic.TcCoe Idealize.ShloMosaic.ValueIdx
open Idealize.ShloMosaic.Pipeline (Dat)

/-! ## The matrix unit's dimension numbers: both operands contracted on their second axis -/

theorem dot_l0 (i : S5000x64.Idx) (q : dot_S5000x128_S64x128_S5000x64_1_1_0_0_n_n.contr.Idx) :
    (dot_S5000x128_S64x128_S5000x64_1_1_0_0_n_n.lhsIdx i q 0).val = (i 0).val := by
  unfold DotDims.lhsIdx
  rw [dif_neg (show ¬(0 : Fin S5000x128.rank) ∈ dot_S5000x128_S64x128_S5000x64_1_1_0_0_n_n.lhsBatch by decide), dif_pos (show (0 : Fin S5000x128.rank) ∈ dot_S5000x128_S64x128_S5000x64_1_1_0_0_n_n.lhsNonContracting by decide)]
  rfl
theorem dot_l1 (i : S5000x64.Idx) (q : dot_S5000x128_S64x128_S5000x64_1_1_0_0_n_n.contr.Idx) :
    (dot_S5000x128_S64x128_S5000x64_1_1_0_0_n_n.lhsIdx i q 1).val = (q ⟨0, by decide⟩).val :=
  dot_S5000x128_S64x128_S5000x64_1_1_0_0_n_n.lhsIdx_val_of_single rfl i q
theorem dot_r0 (i : S5000x64.Idx) (q : dot_S5000x128_S64x128_S5000x64_1_1_0_0_n_n.contr.Idx) :
    (dot_S5000x128_S64x128_S5000x64_1_1_0_0_n_n.rhsIdx i q 0).val = (i 1).val := by
  unfold DotDims.rhsIdx
  rw [dif_neg (show ¬(0 : Fin S64x128.rank) ∈ dot_S5000x128_S64x128_S5000x64_1_1_0_0_n_n.rhsBatch by decide), dif_pos (show (0 : Fin S64x128.rank) ∈ dot_S5000x128_S64x128_S5000x64_1_1_0_0_n_n.rhsNonContracting by decide)]
  rfl
theorem dot_r1 (i : S5000x64.Idx) (q : dot_S5000x128_S64x128_S5000x64_1_1_0_0_n_n.contr.Idx) :
    (dot_S5000x128_S64x128_S5000x64_1_1_0_0_n_n.rhsIdx i q 1).val = (q ⟨0, by decide⟩).val :=
  dot_S5000x128_S64x128_S5000x64_1_1_0_0_n_n.rhsIdx_val_of_single rfl i q

/-! ## The body's result at an entry -/

/-- The staged rows plus the bias row, against zero, at an entry. -/
theorem act_apply (x0 : FVec Ideal S5000x128 .f32) (x1 : FVec Ideal S1x128 .f32) (p : Fin 5000) (q : Fin 128) :
    maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) (ix2 p q)
    = biasRelu (M := 5000) (K := 128) (Ideal.ofBits .f32 0x00000000#32) x0 x1 (ix2 p q) := by
  rw [shapeCast_self, shapeCast_self]
  show max (x0 (ix2 p q) + broadcastTo S5000x128 x1 broadcasts_S1x128_S5000x128 (ix2 p q)) _ = max (x0 (ix2 p q) + x1 (ix2 (0 : Fin 1) q)) _
  rw [broadcastTo_1b_ab_apply]
  rfl

/-- Entry `j` of the block the body stores: the activated staged rows times the staged weights' transpose. -/
theorem pay_apply (x0 : FVec Ideal S5000x128 .f32) (x1 : FVec Ideal S1x128 .f32) (x2 : FVec Ideal S64x128 .f32) (j : S5000x64.Idx) :
    k2_pay1 (F := Ideal) x0 x1 x2 j
      = mmT (M := 5000) (K := 128) (N := 64) (biasRelu (M := 5000) (K := 128) (Ideal.ofBits .f32 0x00000000#32) x0 x1) x2 j := by
  unfold k2_pay1
  refine (Ideal.matmul_constant_zero_apply dot_S5000x128_S64x128_S5000x64_1_1_0_0_n_n none _ _ j).trans ?_
  refine (sum_contr_eq_mmT (M := 5000) (K := 128) (N := 64) dot_S5000x128_S64x128_S5000x64_1_1_0_0_n_n rfl rfl dot_l0 dot_l1 dot_r0 dot_r1 _ _ j).trans ?_
  unfold mmT
  refine Finset.sum_congr rfl fun k _ => ?_
  exact congrArg (· * x2 (ix2 (j 1) k)) (act_apply x0 x1 (j 0) k)

/-- The same against whole arrays: when the staged row `j 0` is row `i 0` of `A0`, the staged bias row is `A1`'s row, and
    the staged weights' row `j 1` is row `i 1` of `A2`, the stored entry `j` is entry `i` of `max (A0 + A1, 0) · A2ᵀ`. -/
theorem pay_rows (A0 : S100000x128.Idx → EReal) (A1 : S1x128.Idx → EReal) (A2 : S64x128.Idx → EReal)
    (x0 : FVec Ideal S5000x128 .f32) (x1 : FVec Ideal S1x128 .f32) (x2 : FVec Ideal S64x128 .f32)
    (j : S5000x64.Idx) (i : S100000x64.Idx)
    (h0 : ∀ k : Fin 128, x0 (ix2 (j 0) k) = A0 (ix2 (i 0) k)) (h1 : ∀ k : Fin 128, x1 (ix2 (0 : Fin 1) k) = A1 (ix2 (0 : Fin 1) k))
    (h2 : ∀ k : Fin 128, x2 (ix2 (j 1) k) = A2 (ix2 (i 1) k)) :
    k2_pay1 (F := Ideal) x0 x1 x2 j
      = mmT (M := 100000) (K := 128) (N := 64) (biasRelu (M := 100000) (K := 128) (Ideal.ofBits .f32 0x00000000#32) A0 A1) A2 i := by
  rw [pay_apply]
  unfold mmT biasRelu
  refine Finset.sum_congr rfl fun k _ => ?_
  show max (x0 (ix2 (j 0) k) + x1 (ix2 (0 : Fin 1) k)) _ * x2 (ix2 (j 1) k) = max (A0 (ix2 (i 0) k) + A1 (ix2 (0 : Fin 1) k)) _ * A2 (ix2 (i 1) k)
  rw [h0 k, h1 k, h2 k]

/-! ## From blocks to the array -/

theorem hz : (![0, 0] : Fin 2 → Nat) = fun _ => 0 := funext fun a => by fin_cases a <;> rfl

/-- The printed index maps, decided over the 20 grid points: the row windows sit at block `t` of the row axis; the bias
    and weight windows never move. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point `t` writes back is block `t` of `max (a + b, 0) · wᵀ` of the three arrays as the region finds them. -/
theorem flushed_eq (c : Dev nD) (t : Fin cfg2.N) :
    (dat2 V c).flushed 3 t = ((cfg2.win 3).blk t).view.read (Elt Ideal)
      (mmT (M := 100000) (K := 128) (N := 64) (biasRelu (M := 100000) (K := 128) (Ideal.ofBits .f32 0x00000000#32) (V c main_v58) (V c main_v59)) (V c main_arg6)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S64x128) hz]
  obtain ⟨e0, e1, e2, e3, e4, e5, e6, e7⟩ := idx_facts t
  funext j
  show k2_pay1 (iblk2 V c 0 t) (iblk2 V c 1 t) (iblk2 V c 2 t) j
    = mmT (M := 100000) (K := 128) (N := 64) (biasRelu (M := 100000) (K := 128) (Ideal.ofBits .f32 0x00000000#32) (V c main_v58) (V c main_v59)) (V c main_arg6) (((cfg2.win 3).blk t).view.emb j)
  refine pay_rows (V c main_v58) (V c main_v59) (V c main_arg6) (iblk2 V c 0 t) (iblk2 V c 1 t) (iblk2 V c 2 t) j (((cfg2.win 3).blk t).view.emb j) (fun k => ?_) (fun k => ?_) (fun k => ?_)
  · show V c main_v58 (((cfg2.win 0).blk t).view.emb (ix2 (j 0) k)) = V c main_v58 (ix2 ((((cfg2.win 3).blk t).view.emb j) 0) k)
    refine congrArg (V c main_v58) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · show V c main_v59 (((cfg2.win 1).blk t).view.emb (ix2 (0 : Fin 1) k)) = V c main_v59 (ix2 (0 : Fin 1) k)
    refine congrArg (V c main_v59) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · show V c main_arg6 (((cfg2.win 2).blk t).view.emb (ix2 (j 1) k)) = V c main_arg6 (ix2 ((((cfg2.win 3).blk t).view.emb j) 1) k)
    refine congrArg (V c main_arg6) (funext fun a => Fin.ext ?_)
    match a with
    | ⟨0, _⟩ => show win2_2.index t (0 : Fin 2) * 64 + 1 * (j 1).val = win2_3.index t (1 : Fin 2) * 64 + 1 * (j 1).val; omega
    | ⟨1, _⟩ => show win2_2.index t (1 : Fin 2) * 128 + 1 * k.val = k.val; omega

/-- An index of the output array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v60).slice (win2_3.rect t)).set ↔ _
  rw [View.set_slice_whole, Rect.mem_set_unit]
  exact Iff.rfl

/-- Row `r` of the output lies in the block of point `r / 5000`: the blocks cover the array. -/
theorem cover (i : S100000x64.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 64 := (i 1).isLt
  have hq : (i 0).val / 5000 < cfg2.N := by omega
  refine ⟨⟨(i 0).val / 5000, hq⟩, flush2_3 _, ?_⟩
  obtain ⟨e0, e1, e2, e3, e4, e5, e6, e7⟩ := idx_facts ⟨(i 0).val / 5000, hq⟩
  rw [mem_blk]
  intro a
  match a with
  | ⟨0, _⟩ =>
    show win2_3.index ⟨(i 0).val / 5000, hq⟩ (0 : Fin 2) * 5000 ≤ (i 0).val ∧ (i 0).val < win2_3.index ⟨(i 0).val / 5000, hq⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, hq⟩ (1 : Fin 2) * 64 ≤ (i 1).val ∧ (i 1).val < win2_3.index ⟨(i 0).val / 5000, hq⟩ (1 : Fin 2) * 64 + 64
    rw [e7]; omega

/-- THE OUTPUT ARRAY after the region: `max (a + b, 0) · wᵀ` of the three input arrays as the region finds them. -/
theorem final (c : Dev nD) : (dat2 V c).arrAt 3 cfg2.N
    = mmT (M := 100000) (K := 128) (N := 64) (biasRelu (M := 100000) (K := 128) (Ideal.ofBits .f32 0x00000000#32) (V c main_v58) (V c main_v59)) (V c main_arg6) :=
  (dat2 V c).arrAt_eq_of_cover 3 _ (fun t _ => flushed_eq V c t) cover

end Cert.KernelIdeal.Region2

end
-- ==== Proof.Stage2.lean ====
/-
  Through the third region.

  The host operations after the second region aggregate its output over the edges exactly as the reference aggregates
  its second product (the reference's own recomputed edge weights being the first layer's), and recast the second bias
  as a one-row array; the third region then leaves `max (agg + b2, 0) · W3ᵀ`, the reference's third product.
-/
import proofs.«131094_j11424613007606_1_alg».proof.Proof.Gen.KernelIdeal.Frame
import proofs.«131094_j11424613007606_1_alg».proof.Proof.RefRead
import proofs.«131094_j11424613007606_1_alg».proof.Proof.RefLayers
import proofs.«131094_j11424613007606_1_alg».proof.Proof.RefNorm
import proofs.«131094_j11424613007606_1_alg».proof.Proof.Stage1
import proofs.«131094_j11424613007606_1_alg».proof.Proof.Region2
import Idealize.ShloMosaic.Lib.StableHlo.Run
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.SL.Sem Cert.LibDense Idealize.ShloMosaic.ValueIdx

variable (m : (ℓ : Loc nD τ sig) → Buf (Elt Ideal) ℓ) (ρ : Dev nD → PrngReg) (c : Dev nD)

/-! ## At the third region's entry -/

theorem W6_v29' : W6 m ρ c (Proc.devRef .tc main_v29) = Cert.ReferenceIdeal.Read.val_main_v73 (F := Ideal) (m ((c : Thread nD τ).loc main_arg1)) :=
  (W6_v29 m ρ c).trans (Cert.ReferenceIdeal.Layers.norm2_eq _).symm

theorem W7_v58 : W7 m ρ c (Proc.devRef .tc main_v58) = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) _ = _
  generalize hW : W6 m ρ c = Wv
  after_results_simp
  subst hW
  rw [W6_v3, W6_v6, W6_v29', W6_v45]
  rfl

theorem W7_v59 : W7 m ρ c (Proc.devRef .tc main_v59) = shapeCast S1x128 (m ((c : Thread nD τ).loc main_arg5)) shapeCasts_S128_S1x128 := by
  show StableHlo.after hostOps2 (W6 m ρ c) _ = _
  generalize hW : W6 m ρ c = Wv
  after_results_simp
  subst hW
  rw [W6_arg5]
  rfl

theorem W7_v3 : W7 m ρ c (Proc.devRef .tc main_v3) = Cert.ReferenceIdeal.Read.val_main_v3 (F := Ideal) (m ((c : Thread nD τ).loc main_arg1)) := by
  show StableHlo.after hostOps2 (W6 m ρ c) _ = _
  generalize hW : W6 m ρ c = Wv
  after_results_simp
  subst hW
  exact W6_v3 m ρ c

theorem W7_v6 : W7 m ρ c (Proc.devRef .tc main_v6) = Cert.ReferenceIdeal.Read.val_main_v6 (F := Ideal) (m ((c : Thread nD τ).loc main_arg1)) := by
  show StableHlo.after hostOps2 (W6 m ρ c) _ = _
  generalize hW : W6 m ρ c = Wv
  after_results_simp
  subst hW
  exact W6_v6 m ρ c

theorem W7_v29 : W7 m ρ c (Proc.devRef .tc main_v29) = Cert.ReferenceIdeal.Read.val_main_v31 (F := Ideal) (m ((c : Thread nD τ).loc main_arg1)) := by
  show StableHlo.after hostOps2 (W6 m ρ c) _ = _
  generalize hW : W6 m ρ c = Wv
  after_results_simp
  subst hW
  exact W6_v29 m ρ c

theorem W7_arg6 : W7 m ρ c (Proc.devRef .tc main_arg6) = m ((c : Thread nD τ).loc main_arg6) := by
  show StableHlo.after hostOps2 (W6 m ρ c) _ = _
  generalize hW : W6 m ρ c = Wv
  after_results_simp
  subst hW
  exact W6_arg6 m ρ c

theorem W7_arg7 : W7 m ρ c (Proc.devRef .tc main_arg7) = m ((c : Thread nD τ).loc main_arg7) := by
  show StableHlo.after hostOps2 (W6 m ρ c) _ = _
  generalize hW : W6 m ρ c = Wv
  after_results_simp
  subst hW
  exact W6_arg7 m ρ c

/-! ## At the third region's exit -/

theorem W8_v60 : W8 m ρ c (Proc.devRef .tc main_v60) = Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 3).trans ?_
  rw [Region2.final (V7 m ρ) c]
  show mmT (M := 100000) (K := 128) (N := 64) (biasRelu (M := 100000) (K := 128) (Ideal.ofBits .f32 0x00000000#32) (W7 m ρ c (Proc.devRef .tc main_v58)) (W7 m ρ c (Proc.devRef .tc main_v59))) (W7 m ρ c (Proc.devRef .tc main_arg6)) = _
  rw [W7_v58, W7_v59, W7_arg6, Cert.ReferenceIdeal.Layers.v92_eq,
    Cert.ReferenceIdeal.Layers.v90_eq _ _ _ _ _ _ (shapeCast S1x128 (m ((c : Thread nD τ).loc main_arg5)) shapeCasts_S128_S1x128) (fun q => shapeCast_a_1a_apply _ _ 0 q)]

theorem W8_v3 : W8 m ρ c (Proc.devRef .tc main_v3) = Cert.ReferenceIdeal.Read.val_main_v3 (F := Ideal) (m ((c : Thread nD τ).loc main_arg1)) := (W8_of_ne m ρ c main_v3 (by decide)).trans (W7_v3 m ρ c)

theorem W8_v6 : W8 m ρ c (Proc.devRef .tc main_v6) = Cert.ReferenceIdeal.Read.val_main_v6 (F := Ideal) (m ((c : Thread nD τ).loc main_arg1)) := (W8_of_ne m ρ c main_v6 (by decide)).trans (W7_v6 m ρ c)

theorem W8_v29 : W8 m ρ c (Proc.devRef .tc main_v29) = Cert.ReferenceIdeal.Read.val_main_v31 (F := Ideal) (m ((c : Thread nD τ).loc main_arg1)) := (W8_of_ne m ρ c main_v29 (by decide)).trans (W7_v29 m ρ c)

theorem W8_arg7 : W8 m ρ c (Proc.devRef .tc main_arg7) = m ((c : Thread nD τ).loc main_arg7) := (W8_of_ne m ρ c main_arg7 (by decide)).trans (W7_arg7 m ρ c)

end Cert.KernelIdeal.Host

end
-- ==== Proof.Region3.lean ====
/-
  The last region: the bias row added to every row.

  Point `t` of the 20 stages rows 5000·t … 5000·t + 4999 of the aggregated [100000, 64] array and the one-row bias
  array, adds the bias row to every staged row, and writes the block back to the same rows of the output. The blocks
  partition the rows, so after the region the output array is the input array plus the bias row, entry by entry.
-/
import proofs.«131094_j11424613007606_1_alg».proof.Proof.Gen.KernelIdeal.Frame
import proofs.«131094_j11424613007606_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Cert.LibDense
open Idealize.ShloMosaic Idealize.ShloMosaic.TcCoe Idealize.ShloMosaic.ValueIdx
open Idealize.ShloMosaic.Pipeline (Dat)

/-! ## The body's result at an entry -/

/-- Entry (p, q) of the block the body stores: the staged entry plus the bias row's entry q. -/
theorem pay_apply (x0 : FVec Ideal S5000x64 .f32) (x1 : FVec Ideal S1x64 .f32) (p : Fin 5000) (q : Fin 64) :
    k3_pay1 (F := Ideal) x0 x1 (ix2 p q) = x0 (ix2 p q) + x1 (ix2 (0 : Fin 1) q) := by
  unfold k3_pay1
  show addf (shapeCast S5000x64 x0 shapeCasts_S5000x64_S5000x64)
      (broadcastTo S5000x64 (shapeCast S1x64 x1 shapeCasts_S1x64_S1x64) broadcasts_S1x64_S5000x64) (ix2 p q) = _
  rw [shapeCast_self, shapeCast_self]
  show x0 (ix2 p q) + broadcastTo S5000x64 x1 broadcasts_S1x64_S5000x64 (ix2 p q) = _
  rw [broadcastTo_1b_ab_apply]

/-- The same against whole arrays: when the staged entry `j` is entry `i` of `A0` and the staged bias row is `A1`'s row
    (at column `j 1 = i 1`), the stored entry `j` is entry `i` of `A0` plus the row. -/
theorem pay_rows (A0 : S100000x64.Idx → EReal) (A1 : S1x64.Idx → EReal) (x0 : FVec Ideal S5000x64 .f32) (x1 : FVec Ideal S1x64 .f32)
    (j : S5000x64.Idx) (i : S100000x64.Idx)
    (h0 : x0 (ix2 (j 0) (j 1)) = A0 i) (h1 : x1 (ix2 (0 : Fin 1) (j 1)) = A1 (ix2 (0 : Fin 1) (i 1))) :
    k3_pay1 (F := Ideal) x0 x1 j = addRow (M := 100000) (K := 64) A0 A1 i := by
  have e : k3_pay1 (F := Ideal) x0 x1 j = x0 (ix2 (j 0) (j 1)) + x1 (ix2 (0 : Fin 1) (j 1)) :=
    (congrArg (k3_pay1 (F := Ideal) x0 x1) (eq_ix2 j)).trans (pay_apply x0 x1 (j 0) (j 1))
  rw [e]
  unfold addRow
  rw [h0, h1]

/-! ## From blocks to the array -/

theorem hz : (![0, 0] : Fin 2 → Nat) = fun _ => 0 := funext fun a => by fin_cases a <;> rfl

/-- The printed index maps, decided over the 20 grid points: the row windows sit at block `t` of the row axis; the bias
    window never moves. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of the aggregated array plus the bias row, as the region finds them. -/
theorem flushed_eq (c : Dev nD) (t : Fin cfg3.N) :
    (dat3 V c).flushed 2 t = ((cfg3.win 2).blk t).view.read (Elt Ideal)
      (addRow (M := 100000) (K := 64) (V c main_v73) (V c main_v74)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  funext j
  show k3_pay1 (iblk3 V c 0 t) (iblk3 V c 1 t) j
    = addRow (M := 100000) (K := 64) (V c main_v73) (V c main_v74) (((cfg3.win 2).blk t).view.emb j)
  refine pay_rows (V c main_v73) (V c main_v74) (iblk3 V c 0 t) (iblk3 V c 1 t) j (((cfg3.win 2).blk t).view.emb j) ?_ ?_
  · show V c main_v73 (((cfg3.win 0).blk t).view.emb (ix2 (j 0) (j 1))) = V c main_v73 (((cfg3.win 2).blk t).view.emb j)
    refine congrArg (V c main_v73) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  · show V c main_v74 (((cfg3.win 1).blk t).view.emb (ix2 (0 : Fin 1) (j 1))) = V c main_v74 (ix2 (0 : Fin 1) ((((cfg3.win 2).blk t).view.emb j) 1))
    refine congrArg (V c main_v74) (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An index of the output array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v75).slice (win3_2.rect t)).set ↔ _
  rw [View.set_slice_whole, Rect.mem_set_unit]
  exact Iff.rfl

/-- Row `r` of the output lies in the block of point `r / 5000`: the blocks cover the array. -/
theorem cover (i : S100000x64.Idx) : ∃ t : Fin cfg3.N, (cfg3.win 2).flush t = true ∧ i ∈ ((cfg3.win 2).blk t).view.set := by
  have hN : cfg3.N = 20 := N_3
  have hi0 : (i 0).val < 100000 := (i 0).isLt
  have hi1 : (i 1).val < 64 := (i 1).isLt
  have hq : (i 0).val / 5000 < cfg3.N := by omega
  refine ⟨⟨(i 0).val / 5000, hq⟩, flush3_2 _, ?_⟩
  obtain ⟨e0, e1, e2, e3, e4, e5⟩ := idx_facts ⟨(i 0).val / 5000, hq⟩
  rw [mem_blk]
  intro a
  match a with
  | ⟨0, _⟩ =>
    show win3_2.index ⟨(i 0).val / 5000, hq⟩ (0 : Fin 2) * 5000 ≤ (i 0).val ∧ (i 0).val < win3_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hq⟩ (1 : Fin 2) * 64 ≤ (i 1).val ∧ (i 1).val < win3_2.index ⟨(i 0).val / 5000, hq⟩ (1 : Fin 2) * 64 + 64
    rw [e5]; omega

/-- THE OUTPUT ARRAY after the region: the aggregated array plus the bias row, as the region finds them. -/
theorem final (c : Dev nD) : (dat3 V c).arrAt 2 cfg3.N = addRow (M := 100000) (K := 64) (V c main_v73) (V c main_v74) :=
  (dat3 V c).arrAt_eq_of_cover 2 _ (fun t _ => flushed_eq V c t) cover

end Cert.KernelIdeal.Region3

end
-- ==== Proof.Stage3.lean ====
/-
  Through the last region: the program's result.

  The host operations after the third region aggregate its [100000, 64] output over the edges as the reference
  aggregates its third product, and recast the third bias as a one-row array; the last region adds that row to every
  row. What the result buffer holds at the end of the run is therefore the reference's last stage of the same
  arguments.
-/
import proofs.«131094_j11424613007606_1_alg».proof.Proof.Gen.KernelIdeal.Frame
import proofs.«131094_j11424613007606_1_alg».proof.Proof.RefRead
import proofs.«131094_j11424613007606_1_alg».proof.Proof.RefLayers
import proofs.«131094_j11424613007606_1_alg».proof.Proof.RefNorm
import proofs.«131094_j11424613007606_1_alg».proof.Proof.Stage2
import proofs.«131094_j11424613007606_1_alg».proof.Proof.Region3
import Idealize.ShloMosaic.Lib.StableHlo.Run
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.SL.Sem Cert.LibDense Idealize.ShloMosaic.ValueIdx

variable (m : (ℓ : Loc nD τ sig) → Buf (Elt Ideal) ℓ) (ρ : Dev nD → PrngReg) (c : Dev nD)

/-! ## At the last region's entry -/

theorem W8_v29' : W8 m ρ c (Proc.devRef .tc main_v29) = Cert.ReferenceIdeal.Read.val_main_v115 (F := Ideal) (m ((c : Thread nD τ).loc main_arg1)) :=
  (W8_v29 m ρ c).trans (Cert.ReferenceIdeal.Layers.norm3_eq _).symm

theorem W9_v73 : W9 m ρ c (Proc.devRef .tc main_v73) = Cert.ReferenceIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W8 m ρ c) _ = _
  generalize hW : W8 m ρ c = Wv
  after_results_simp
  subst hW
  rw [W8_v3, W8_v6, W8_v29', W8_v60]
  rfl

theorem W9_v74 : W9 m ρ c (Proc.devRef .tc main_v74) = shapeCast S1x64 (m ((c : Thread nD τ).loc main_arg7)) shapeCasts_S64_S1x64 := by
  show StableHlo.after hostOps3 (W8 m ρ c) _ = _
  generalize hW : W8 m ρ c = Wv
  after_results_simp
  subst hW
  rw [W8_arg7]
  rfl

/-! ## The result -/

/-- The result buffer at the end of the run is the reference's last stage of the kernel's arguments. -/
theorem W10_v75 : W10 m ρ c (Proc.devRef .tc main_v75) = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ?_
  rw [Region3.final (V9 m ρ) c]
  show addRow (M := 100000) (K := 64) (W9 m ρ c (Proc.devRef .tc main_v73)) (W9 m ρ c (Proc.devRef .tc main_v74)) = _
  rw [W9_v73, W9_v74,
    Cert.ReferenceIdeal.Layers.v131_eq _ _ _ _ _ _ _ _ (shapeCast S1x64 (m ((c : Thread nD τ).loc main_arg7)) shapeCasts_S64_S1x64) (fun q => shapeCast_a_1a_apply _ _ 0 q)]

end Cert.KernelIdeal.Host

end
-- ==== Proof.lean ====
/-
  Three graph-convolution layers: the tiled program against the plain one, on the extended reals.

  Both programs build, from the edge list, the source and destination index arrays (with one self loop per node) and
  the edge weights d(src)·d(dst), d the inverse square root of the in-degree where it is positive and zero elsewhere.
  A layer multiplies the node features by the transposed weights, gathers the rows along the source indices, scales
  each by its edge weight, scatter-adds them at the destination indices and adds the bias; the first two layers end
  with a maximum against zero.

  The plain program does each step as one host operation. The tiled program runs the products in 20 row blocks per
  layer inside three regions — the second and third of which first add the previous layer's bias and take the maximum —,
  leaves the gathers and scatter-adds on the host, and adds the last bias in a fourth region. Rounding an operand to a
  shorter float format is the identity on extended reals, a matrix unit contracting the second axis of both operands
  into a zero accumulator computes the same sums as a contraction with the transposed array, and row blocks that
  partition an array assemble to the whole-array function: so each region leaves exactly the reference's stage, the
  host operations between them are the reference's own, and the two results are one array. No law of arithmetic
  beyond reading the same sums is used, so the inputs' finiteness is not needed.

  Modules: LibDense (the layer's pieces at an entry), Region0 … Region3 (each region's output array as one function of
  its input arrays), KernelRun (the run with its result named), HostA and Stage1 … Stage3 (the buffer contents at each
  boundary between host stretches and regions, identified with the reference's stages), RefLayers and RefNorm (the
  reference's stages as the layer's pieces), RefRun and RefRead (the reference's run and its stages).
-/
import proofs.«131094_j11424613007606_1_alg».proof.Defs
import proofs.«131094_j11424613007606_1_alg».proof.Proof.Gen.Kernel
import proofs.«131094_j11424613007606_1_alg».proof.Proof.Gen.Kernel.Skeleton
import proofs.«131094_j11424613007606_1_alg».proof.Proof.Gen.Kernel.Launch
import proofs.«131094_j11424613007606_1_alg».proof.Proof.Gen.Kernel.Points
import proofs.«131094_j11424613007606_1_alg».proof.Proof.Gen.Kernel.Frame
import proofs.«131094_j11424613007606_1_alg».proof.Proof.Gen.KernelIdeal
import proofs.«131094_j11424613007606_1_alg».proof.Proof.Gen.KernelIdeal.Skeleton
import proofs.«131094_j11424613007606_1_alg».proof.Proof.Gen.KernelIdeal.Launch
import proofs.«131094_j11424613007606_1_alg».proof.Proof.Gen.KernelIdeal.Points
import proofs.«131094_j11424613007606_1_alg».proof.Proof.Gen.KernelIdeal.Frame
import proofs.«131094_j11424613007606_1_alg».proof.Proof.Gen.ReferenceIdeal
import proofs.«131094_j11424613007606_1_alg».proof.Proof.Gen.Pre_finite_inputs
import proofs.«131094_j11424613007606_1_alg».proof.Proof.RefRun
import proofs.«131094_j11424613007606_1_alg».proof.Proof.RefRead
import proofs.«131094_j11424613007606_1_alg».proof.Proof.KernelRun
import proofs.«131094_j11424613007606_1_alg».proof.Proof.Stage3
import Idealize.ShloMosaic.Adequacy
import Idealize.ShloMosaic.Init

noncomputable section

namespace Cert.Proof

open Idealize.ShloMosaic Idealize.SL.Sem

/-- The word-level program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the reference's last stage of those arguments in
    their result buffers. -/
theorem algebraic : Cert.algebraic_KernelIdeal_ReferenceIdeal := by
  intro m ρ m' ρ' _ hagree
  refine ⟨fun c => Cert.ReferenceIdeal.Read.val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Host.W10_v75 m ρ c), (h c).2⟩)
      (Cert.KernelIdeal.RunValue.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    show Cert.ReferenceIdeal.Value.res_main_v131 m' c
      = Cert.ReferenceIdeal.Read.val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    rw [Cert.ReferenceIdeal.Read.val_main_v131_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
